-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S200000x64 .f32) (main_arg1 : IVec S2x1200000 32) (main_arg2 : FVec F S64x64 .f32) (main_arg3 : FVec F S64x64 .f32) (main_arg4 : FVec F S64 .f32) (main_arg5 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S200000x64 : Shape := ⟨2, ![200000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S200000 : Shape := ⟨1, ![200000]⟩
abbrev S200000x1 : Shape := ⟨2, ![200000, 1]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 38
  | .vmem => 10
  | .smem => 0
  | _ => 0

abbrev bufTy : (tb : Table) → Fin (tcTables nBuf tb) → BufTy
  | .hbm, ⟨0, _⟩ => ⟨S200000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S_, .f32⟩
  | .hbm, ⟨20, _⟩ => ⟨S200000x64, .f32⟩
  | .hbm, ⟨21, _⟩ => ⟨S1200000x1, .i32⟩
  | .hbm, ⟨22, _⟩ => ⟨S200000x64, .f32⟩
  | .hbm, ⟨23, _⟩ => ⟨S_, .f32⟩
  | .hbm, ⟨24, _⟩ => ⟨S1200000, .f32⟩
  | .hbm, ⟨25, _⟩ => ⟨S_, .f32⟩
  | .hbm, ⟨26, _⟩ => ⟨S200000, .f32⟩
  | .hbm, ⟨27, _⟩ => ⟨S1200000x1, .i32⟩
  | .hbm, ⟨28, _⟩ => ⟨S200000, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S200000x1, .f32⟩
  | .hbm, ⟨33, _⟩ => ⟨S200000x64, .f32⟩
  | .hbm, ⟨34, _⟩ => ⟨S200000x64, .f32⟩
  | .hbm, ⟨35, _⟩ => ⟨S1x64, .f32⟩
  | .hbm, ⟨36, _⟩ => ⟨S1x64, .f32⟩
  | .hbm, ⟨37, _⟩ => ⟨S200000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  reduces_S5000x64_S5000 : S5000x64.Reduces [1] S5000
  shapeCasts_S5000_S5000x1 : S5000.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  scatter_S200000_S1200000x1_S1200000_n_0_0_1_wf : ScatterDims.WF S200000 S1200000x1 S1200000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S200000x64.size a
  hwx0_1 : ∀ i : grid0.Coords, EltTy.bits .f32 = 32 ∨ (Rect.block (s := S200000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S200000x64.size a
  hwx0_6 : ∀ i : grid0.Coords, EltTy.bits .f32 = 32 ∨ (Rect.block (s := S200000x64) S5000x64.size (cc0_transform_6 i) (hinb0_6 i)).WholeWords (EltTy.packing .f32)

variable [Facts₀]

def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def scatter_S200000_S1200000x1_S1200000_n_0_0_1 : ScatterDims S200000 S1200000x1 S1200000 where
  updateWindowDims := []
  insertedWindowDims := [0]
  scatterDimsToOperandDims := [0]
  indexVectorDim := 1
  wf := scatter_S200000_S1200000x1_S1200000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S200000x64 : Shape := ⟨2, ![200000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S200000 : Shape := ⟨1, ![200000]⟩
abbrev S200000x1 : Shape := ⟨2, ![200000, 1]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S_, .i32⟩
  | .hbm, ⟨11, _⟩ => ⟨S1200000, .i32⟩
  | .hbm, ⟨12, _⟩ => ⟨S1200000, .i1⟩
  | .hbm, ⟨13, _⟩ => ⟨S_, .i32⟩
  | .hbm, ⟨14, _⟩ => ⟨S1200000, .i32⟩
  | .hbm, ⟨15, _⟩ => ⟨S1200000, .i32⟩
  | .hbm, ⟨16, _⟩ => ⟨S1200000, .i32⟩
  | .hbm, ⟨17, _⟩ => ⟨S1200000x1, .i32⟩
  | .hbm, ⟨18, _⟩ => ⟨S1200000x64, .f32⟩
  | .hbm, ⟨19, _⟩ => ⟨S_, .f32⟩
  | .hbm, ⟨20, _⟩ => ⟨S200000x64, .f32⟩
  | .hbm, ⟨21, _⟩ => ⟨S1200000x1, .i32⟩
  | .hbm, ⟨22, _⟩ => ⟨S200000x64, .f32⟩
  | .hbm, ⟨23, _⟩ => ⟨S_, .f32⟩
  | .hbm, ⟨24, _⟩ => ⟨S1200000, .f32⟩
  | .hbm, ⟨25, _⟩ => ⟨S_, .f32⟩
  | .hbm, ⟨26, _⟩ => ⟨S200000, .f32⟩
  | .hbm, ⟨27, _⟩ => ⟨S1200000x1, .i32⟩
  | .hbm, ⟨28, _⟩ => ⟨S200000, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S200000x1, .f32⟩
  | .hbm, ⟨33, _⟩ => ⟨S200000x64, .f32⟩
  | .hbm, ⟨34, _⟩ => ⟨S200000x64, .f32⟩
  | .hbm, ⟨35, _⟩ => ⟨S64x64, .f32⟩
  | .hbm, ⟨36, _⟩ => ⟨S200000x64, .f32⟩
  | .hbm, ⟨37, _⟩ => ⟨S64x64, .f32⟩
  | .hbm, ⟨38, _⟩ => ⟨S200000x64, .f32⟩
  | .hbm, ⟨39, _⟩ => ⟨S200000x64, .f32⟩
  | .hbm, ⟨40, _⟩ => ⟨S_, .f32⟩
  | .hbm, ⟨41, _⟩ => ⟨S200000, .f32⟩
  | .hbm, ⟨42, _⟩ => ⟨S200000x1, .f32⟩
  | .hbm, ⟨43, _⟩ => ⟨S_, .f32⟩
  | .hbm, ⟨44, _⟩ => ⟨S200000x1, .f32⟩
  | .hbm, ⟨45, _⟩ => ⟨S200000x1, .f32⟩
  | .hbm, ⟨46, _⟩ => ⟨S200000x64, .f32⟩
  | .hbm, ⟨47, _⟩ => ⟨S200000x64, .f32⟩
  | .hbm, ⟨48, _⟩ => ⟨S200000x64, .f32⟩
  | .hbm, ⟨49, _⟩ => ⟨S_, .f32⟩
  | .hbm, ⟨50, _⟩ => ⟨S200000, .f32⟩
  | .hbm, ⟨51, _⟩ => ⟨S200000x1, .f32⟩
  | .hbm, ⟨52, _⟩ => ⟨S_, .f32⟩
  | .hbm, ⟨53, _⟩ => ⟨S200000x1, .f32⟩
  | .hbm, ⟨54, _⟩ => ⟨S200000x1, .f32⟩
  | .hbm, ⟨55, _⟩ => ⟨S200000x64, .f32⟩
  | .hbm, ⟨56, _⟩ => ⟨S200000x64, .f32⟩
  | .hbm, ⟨57, _⟩ => ⟨S_, .f32⟩
  | .hbm, ⟨58, _⟩ => ⟨S200000x1, .f32⟩
  | .hbm, ⟨59, _⟩ => ⟨S200000x1, .f32⟩
  | .hbm, ⟨60, _⟩ => ⟨S200000x1, .f32⟩
  | .hbm, ⟨61, _⟩ => ⟨S200000x64, .f32⟩
  | .hbm, ⟨62, _⟩ => ⟨S200000x64, .f32⟩
  | .hbm, ⟨63, _⟩ => ⟨S1x64, .f32⟩
  | .hbm, ⟨64, _⟩ => ⟨S200000x64, .f32⟩
  | .hbm, ⟨65, _⟩ => ⟨S200000x64, .f32⟩
  | .hbm, ⟨66, _⟩ => ⟨S1x64, .f32⟩
  | .hbm, ⟨67, _⟩ => ⟨S200000x64, .f32⟩
  | .hbm, ⟨68, _⟩ => ⟨S200000x64, .f32⟩
  | .hbm, ⟨69, _⟩ => ⟨S_, .f32⟩
  | .hbm, ⟨70, _⟩ => ⟨S200000x64, .f32⟩
  | .hbm, ⟨71, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  transposes_S64x64_S64x64_1_0 : S64x64.Transposes [1, 0] S64x64
  reducesTo_S200000x64_S200000_d1 : S200000x64.ReducesTo [1] S200000
  h_S_ : 0 < S_.numel
  bcast_S_S200000x1 : S_.BroadcastsInDim S200000x1 (![] : Fin 0 → Fin S200000x1.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  scatter_S200000_S1200000x1_S1200000_n_0_0_1_wf : ScatterDims.WF S200000 S1200000x1 S1200000 [] [0] [0] 1
  dot_S200000x64_S64x64_S200000x64_1_0_0_1_n_n_wf : DotDims.WF S200000x64 S64x64 S200000x64 [1] [0] [0] [1] [] []

variable [Facts₀]

def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def scatter_S200000_S1200000x1_S1200000_n_0_0_1 : ScatterDims S200000 S1200000x1 S1200000 where
  updateWindowDims := []
  insertedWindowDims := [0]
  scatterDimsToOperandDims := [0]
  indexVectorDim := 1
  wf := scatter_S200000_S1200000x1_S1200000_n_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.RowNorm.lean ====
/-
  The mathematics both programs compute, on the extended reals.

  For a node with aggregated-neighbour row `a` and feature row `f` (64 entries each) and weight matrices `wr`, `wo`
  (64 × 64, used transposed: output channel `k` is the inner product with ROW `k` of the matrix):

      lin a f wr wo k = Σ_j a j · wr k j  +  Σ_j f j · wo k j

  then layer normalisation over the 64 channels followed by an affine map and a rectifier:

      rowMean o = (Σ_k o k) / 64,   dev o k = o k − rowMean o,   rowVar o = (Σ_k (dev o k)²) / 64,
      normRelu o g b q = max ((dev o q · rsqrt (rowVar o + ε)) · g q + b q) 0.

  The constants 64, ε and 0 are kept as the f32 words both programs print; they are never evaluated.
  `out` is the whole [200000, 64] result: entry (r, q) is `normRelu` of row r's `lin`.
-/
import Idealize.ShloMosaic.PureOps.Ideal
import Idealize.ShloMosaic.Lib.ValueIdx

noncomputable section

namespace Cert.GraphNorm

open Idealize.ShloMosaic Idealize.ShloMosaic.ValueIdx

/-- The two matrix products of one row, summed: channel `k` of `a · wrᵀ + f · woᵀ`. -/
def lin (a f : Fin 64 → EReal) (wr wo : Fin 64 → Fin 64 → EReal) (k : Fin 64) : EReal :=
  (∑ j : Fin 64, a j * wr k j) + ∑ j : Fin 64, f j * wo k j

/-- The mean of a row of 64 channels (the divisor is the f32 word of 64). -/
def rowMean (o : Fin 64 → EReal) : EReal :=
  Ideal.div (∑ k : Fin 64, o k) (Ideal.ofBits .f32 0x42800000#32)

/-- A channel's deviation from the row mean. -/
def dev (o : Fin 64 → EReal) (k : Fin 64) : EReal := o k - rowMean o

/-- The (biased) variance of a row: the mean of the squared deviations. -/
def rowVar (o : Fin 64 → EReal) : EReal :=
  Ideal.div (∑ k : Fin 64, dev o k * dev o k) (Ideal.ofBits .f32 0x42800000#32)

/-- Layer normalisation of a row with scale `g` and shift `b`, then the rectifier. -/
def normRelu (o g b : Fin 64 → EReal) (q : Fin 64) : EReal :=
  max (dev o q * Ideal.rsqrt (rowVar o + Ideal.ofBits .f32 0x3727C5AC#32) * g q + b q) (Ideal.ofBits .f32 0x00000000#32)

/-- Entry (r, q) of the result, from the aggregated rows `ma`, the feature rows `feat`, the two weight matrices and
    the scale and shift vectors. -/
def outAt (ma feat : (⟨2, ![200000, 64]⟩ : Shape).Idx → EReal) (wr wo : (⟨2, ![64, 64]⟩ : Shape).Idx → EReal)
    (g b : (⟨1, ![64]⟩ : Shape).Idx → EReal) (r : Fin 200000) (q : Fin 64) : EReal :=
  normRelu (lin (fun j => ma (ix2 r j)) (fun j => feat (ix2 r j)) (fun k j => wr (ix2 k j)) (fun k j => wo (ix2 k j)))
    (fun c => g (ix1 c)) (fun c => b (ix1 c)) q

/-- The whole result array. -/
def out (ma feat : (⟨2, ![200000, 64]⟩ : Shape).Idx → EReal) (wr wo : (⟨2, ![64, 64]⟩ : Shape).Idx → EReal)
    (g b : (⟨1, ![64]⟩ : Shape).Idx → EReal) : (⟨2, ![200000, 64]⟩ : Shape).Idx → EReal :=
  fun i => outAt ma feat wr wo g b (i 0) (i 1)

theorem out_ix2 (ma feat : (⟨2, ![200000, 64]⟩ : Shape).Idx → EReal) (wr wo : (⟨2, ![64, 64]⟩ : Shape).Idx → EReal)
    (g b : (⟨1, ![64]⟩ : Shape).Idx → EReal) (r : Fin 200000) (q : Fin 64) :
    out ma feat wr wo g b (ix2 r q) = outAt ma feat wr wo g b r q := rfl

end Cert.GraphNorm

end
-- ==== Proof.LibColumnLayouts.lean ====
/-
  Column ("keepdims") layout operations and one-axis minimum reductions read at an index, for any extents:

    * a column `[a, 1]` broadcast to `[a, b]` reads, at `(p, c)`, the column at `p`;
    * a vector `[a]` cast to a column `[a, 1]` reads, at `(p, u)`, the vector at `p`;
    * a `[1, 1, 1]` array broadcast along its last axis to `[1, 1, b]` reads its one element everywhere;
    * at the exact instance a `vector.multi_reduction <minimumf>` over ONE axis is, at each reduced index, the fold of
      `min` from the accumulator's value over that axis's coordinates (the inserted index is `Shape.Reduces.lift`).
-/
import Idealize.ShloMosaic.PureOps.Ideal.Laws
import Idealize.ShloMosaic.Lib.Pipeline.Value
import Idealize.ShloMosaic.Lib.ValueIdx
import Idealize.ShloMosaic.Lib.ValueLayout

noncomputable section

namespace Idealize.ShloMosaic.ColumnLayouts

open Idealize.ShloMosaic Idealize.ShloMosaic.ValueIdx

variable {α : Type}

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A `[1, 1, 1]` array broadcast to `[1, 1, b]` reads its one element at every lane. -/
theorem broadcastTo_111_11b_apply {b : ℕ} (v : (⟨3, ![1, 1, 1]⟩ : Shape).Idx → α)
    (h : (⟨3, ![1, 1, 1]⟩ : Shape).Broadcasts ⟨3, ![1, 1, b]⟩) (u0 u1 : Fin 1) (c : Fin b) :
    broadcastTo ⟨3, ![1, 1, b]⟩ v h (ix3 u0 u1 c) = v (ix3 (0 : Fin 1) (0 : Fin 1) (0 : Fin 1)) := by
  refine broadcastTo_apply v h (ix3 u0 u1 c) (ix3 (0 : Fin 1) (0 : Fin 1) (0 : Fin 1)) fun ax => ?_
  match ax with
  | ⟨0, _⟩ => rfl
  | ⟨1, _⟩ => rfl
  | ⟨2, _⟩ => rfl

variable {φ : FTy}

/-- A float `vector.multi_reduction <minimumf>` over one axis, read at the exact instance: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

end Idealize.ShloMosaic.ColumnLayouts

end
-- ==== Proof.KernelBlock.lean ====
/-
  What the kernel body stores, entry by entry, at the exact instance.

  The body loads a block `x0` of aggregated rows and a block `x1` of feature rows (5000 × 64 each), the two weight
  matrices `x2`, `x3` (64 × 64) and the scale and shift rows `x4`, `x5` (1 × 64). Its stored value at (p, q) is

      normRelu (lin (row p of x0) (row p of x1) x2 x3) (x4's row) (x5's row) q :

  a matrix product against a TRANSPOSED weight reads row `k` of the weight for output channel `k`; a lane sum is the
  sum over the 64 channels; the "keepdims" casts and broadcasts only repeat a row's scalar along the row; a change of
  float format is the identity here.
-/
import proofs.«145291_j82008105549931_1_alg».proof.Proof.Gen.KernelIdeal.Skeleton
import proofs.«145291_j82008105549931_1_alg».proof.Proof.RowNorm
import proofs.«145291_j82008105549931_1_alg».proof.Proof.LibColumnLayouts
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx
open Cert.GraphNorm

/-- The kernel's one contraction record: [5000, 64] against [64, 64] over the shared axis of 64. -/
abbrev D : DotDims S5000x64 S64x64 S5000x64 := dot_S5000x64_S64x64_S5000x64_1_0_0_1_n_n

theorem lhs_0 (i : S5000x64.Idx) (q : D.contr.Idx) : (D.lhsIdx i q 0).val = (i 0).val := by
  unfold DotDims.lhsIdx
  rw [dif_neg (show ¬(0 : Fin S5000x64.rank) ∈ D.lhsBatch by decide), dif_pos (show (0 : Fin S5000x64.rank) ∈ D.lhsNonContracting by decide)]
  rfl
theorem lhs_1 (i : S5000x64.Idx) (q : D.contr.Idx) : (D.lhsIdx i q 1).val = (q ⟨0, by decide⟩).val :=
  D.lhsIdx_val_of_single rfl i q
theorem rhs_0 (i : S5000x64.Idx) (q : D.contr.Idx) : (D.rhsIdx i q 0).val = (q ⟨0, by decide⟩).val :=
  D.rhsIdx_val_of_single rfl i q
theorem rhs_1 (i : S5000x64.Idx) (q : D.contr.Idx) : (D.rhsIdx i q 1).val = (i 1).val := by
  unfold DotDims.rhsIdx
  rw [dif_neg (show ¬(1 : Fin S64x64.rank) ∈ D.rhsBatch by decide), dif_pos (show (1 : Fin S64x64.rank) ∈ D.rhsNonContracting by decide)]
  rfl

/-- A block times a TRANSPOSED weight matrix, into a zero accumulator: entry (p, k) is the inner product of row `p` of
    the block with ROW `k` of the weight. -/
theorem matmulT_apply (x : FVec Ideal S5000x64 .bf16) (w : FVec Ideal S64x64 .bf16) (p : Fin 5000) (k : Fin 64) :
    matmul D none x (transpose S64x64 [1, 0] w transposes_S64x64_p1_0_S64x64) (constant (F := Ideal) S5000x64 .f32 0x00000000#32) (ix2 p k)
      = ∑ j : Fin 64, x (ix2 p j) * w (ix2 k j) := by
  simp only [matmul]
  rw [Ideal.matmul_constant_zero_apply, ← Equiv.sum_comp (contrEquiv1 D 64 rfl rfl).symm]
  refine Finset.sum_congr rfl fun j _ => ?_
  have hk := contrEquiv1_symm_val D 64 rfl rfl j
  have el : D.lhsIdx (ix2 p k) ((contrEquiv1 D 64 rfl rfl).symm j) = ix2 p j := funext fun a => Fin.ext (by
    match a with
    | ⟨0, _⟩ => exact lhs_0 _ _
    | ⟨1, _⟩ => exact (lhs_1 _ _).trans hk)
  have er : D.rhsIdx (ix2 p k) ((contrEquiv1 D 64 rfl rfl).symm j) = ix2 j k := funext fun a => Fin.ext (by
    match a with
    | ⟨0, _⟩ => exact (rhs_0 _ _).trans hk
    | ⟨1, _⟩ => exact rhs_1 _ _)
  rw [el, er, transpose_ix2_apply]

/-- A lane sum of a block: entry `p` is the sum of row `p` over the 64 channels. -/
theorem rowsum_apply (v : FVec Ideal S5000x64 .f32) (p : Fin 5000) :
    multiReduction (F := Ideal) .add [1] S5000 v 0x00000000#32 reduces_S5000x64_S5000 (.inl rfl) rfl (ix1 p) = ∑ k : Fin 64, v (ix2 p k) := by
  refine (Ideal.multiReduction_add_single v 0x00000000#32 reduces_S5000x64_S5000 (.inl rfl) rfl (ix1 p)).trans ?_
  exact Finset.sum_congr rfl fun k _ => congrArg v (funext fun a => Fin.ext (by match a with | ⟨0, _⟩ => rfl | ⟨1, _⟩ => rfl))

/-! ## The linear stage -/

/-- The body's two products and their sum, of the loaded blocks. -/
def linK (x0 x1 : Vec Ideal S5000x64 .f32) (x2 x3 : Vec Ideal S64x64 .f32) : FVec Ideal S5000x64 .f32 :=
  addf (matmul D none (truncf .bf16 (shapeCast S5000x64 x0 shapeCasts_S5000x64_S5000x64) bitsLt_bf16_f32)
      (transpose S64x64 [1, 0] (truncf .bf16 x2 bitsLt_bf16_f32) transposes_S64x64_p1_0_S64x64) (constant (F := Ideal) S5000x64 .f32 0x00000000#32))
    (matmul D none (truncf .bf16 x1 bitsLt_bf16_f32)
      (transpose S64x64 [1, 0] (truncf .bf16 x3 bitsLt_bf16_f32) transposes_S64x64_p1_0_S64x64) (constant (F := Ideal) S5000x64 .f32 0x00000000#32))

theorem linK_apply (x0 x1 : Vec Ideal S5000x64 .f32) (x2 x3 : Vec Ideal S64x64 .f32) (p : Fin 5000) (k : Fin 64) :
    linK x0 x1 x2 x3 (ix2 p k)
      = lin (fun j => x0 (ix2 p j)) (fun j => x1 (ix2 p j)) (fun k j => x2 (ix2 k j)) (fun k j => x3 (ix2 k j)) k := by
  unfold linK lin
  rw [addf_apply, matmulT_apply, matmulT_apply, shapeCast_self]
  rfl

/-! ## Layer normalisation and the rectifier -/

/-- A block's row means, repeated along each row. -/
def meanK (o : FVec Ideal S5000x64 .f32) : FVec Ideal S5000x64 .f32 :=
  broadcastTo S5000x64 (divf (shapeCast S5000x1 (multiReduction (F := Ideal) .add [1] S5000 o 0x00000000#32 reduces_S5000x64_S5000 (.inl rfl) rfl) shapeCasts_S5000_S5000x1)
    (broadcast S5000x1 (Scalar.ofBits (F := Ideal) .f32 0x42800000#32))) broadcasts_S5000x1_S5000x64

theorem meanK_apply (o : FVec Ideal S5000x64 .f32) (p : Fin 5000) (q : Fin 64) :
    meanK o (ix2 p q) = rowMean (fun k => o (ix2 p k)) := by
  unfold meanK rowMean
  rw [ColumnLayouts.broadcastTo_a1_ab_apply, divf_apply, ColumnLayouts.shapeCast_a_a1_apply, rowsum_apply]
  rfl

/-- The deviations from the row means. -/
def devK (o : FVec Ideal S5000x64 .f32) : FVec Ideal S5000x64 .f32 := subf o (meanK o)

theorem devK_apply (o : FVec Ideal S5000x64 .f32) (p : Fin 5000) (q : Fin 64) :
    devK o (ix2 p q) = dev (fun k => o (ix2 p k)) q := by
  unfold devK dev
  rw [subf_apply, meanK_apply]

/-- The reciprocal square roots of the row variances plus ε, repeated along each row. -/
def invK (o : FVec Ideal S5000x64 .f32) : FVec Ideal S5000x64 .f32 :=
  broadcastTo S5000x64 (rsqrt (addf (divf (shapeCast S5000x1 (multiReduction (F := Ideal) .add [1] S5000 (mulf (devK o) (devK o)) 0x00000000#32 reduces_S5000x64_S5000 (.inl rfl) rfl) shapeCasts_S5000_S5000x1)
      (broadcast S5000x1 (Scalar.ofBits (F := Ideal) .f32 0x42800000#32)))
    (broadcast S5000x1 (Scalar.ofBits (F := Ideal) .f32 0x3727C5AC#32)))) broadcasts_S5000x1_S5000x64

theorem invK_apply (o : FVec Ideal S5000x64 .f32) (p : Fin 5000) (q : Fin 64) :
    invK o (ix2 p q) = Ideal.rsqrt (rowVar (fun k => o (ix2 p k)) + Ideal.ofBits .f32 0x3727C5AC#32) := by
  unfold invK rowVar
  rw [ColumnLayouts.broadcastTo_a1_ab_apply]
  show Ideal.rsqrt (Ideal.div (shapeCast S5000x1 _ shapeCasts_S5000_S5000x1 (ix2 p (0 : Fin 1))) _ + _) = _
  rw [ColumnLayouts.shapeCast_a_a1_apply, rowsum_apply]
  refine congrArg (fun s => Ideal.rsqrt (Ideal.div s _ + _)) (Finset.sum_congr rfl fun k _ => ?_)
  rw [mulf_apply, devK_apply]

/-- The body's stored value, from the linear stage `o` and the scale and shift rows. -/
def tailK (o : FVec Ideal S5000x64 .f32) (x4 x5 : Vec Ideal S1x64 .f32) : FVec Ideal S5000x64 .f32 :=
  maximumf (addf (mulf (mulf (devK o) (invK o)) (broadcastTo S5000x64 (shapeCast S1x64 x4 shapeCasts_S1x64_S1x64) broadcasts_S1x64_S5000x64))
      (broadcastTo S5000x64 (shapeCast S1x64 x5 shapeCasts_S1x64_S1x64) broadcasts_S1x64_S5000x64))
    (broadcast S5000x64 (Scalar.ofBits (F := Ideal) .f32 0x00000000#32))

theorem tailK_apply (o : FVec Ideal S5000x64 .f32) (x4 x5 : Vec Ideal S1x64 .f32) (p : Fin 5000) (q : Fin 64) :
    tailK o x4 x5 (ix2 p q)
      = normRelu (fun k => o (ix2 p k)) (fun c => x4 (ix2 (0 : Fin 1) c)) (fun c => x5 (ix2 (0 : Fin 1) c)) q := by
  unfold tailK normRelu
  rw [maximumf_apply, addf_apply, mulf_apply, mulf_apply, devK_apply, invK_apply, broadcastTo_1b_ab_apply,
    broadcastTo_1b_ab_apply, shapeCast_self, shapeCast_self]
  rfl

/-! ## The payload -/

/-- The body's payload is the tail of the linear stage: the printed operations, regrouped. -/
theorem pay_eq (x0 x1 : Vec Ideal S5000x64 .f32) (x2 x3 : Vec Ideal S64x64 .f32) (x4 x5 : Vec Ideal S1x64 .f32) :
    k0_pay1 (k0_pay2 x0 x1 x2 x3 x4 x5) (k0_pay3 (F := Ideal)) = tailK (linK x0 x1 x2 x3) x4 x5 := rfl

/-- THE STORED VALUE at (p, q): row `p`'s linear stage, normalised over its 64 channels, scaled, shifted, rectified. -/
theorem pay_apply (x0 x1 : Vec Ideal S5000x64 .f32) (x2 x3 : Vec Ideal S64x64 .f32) (x4 x5 : Vec Ideal S1x64 .f32)
    (p : Fin 5000) (q : Fin 64) :
    k0_pay1 (k0_pay2 x0 x1 x2 x3 x4 x5) (k0_pay3 (F := Ideal)) (ix2 p q)
      = normRelu (lin (fun j => x0 (ix2 p j)) (fun j => x1 (ix2 p j)) (fun k j => x2 (ix2 k j)) (fun k j => x3 (ix2 k j)))
          (fun c => x4 (ix2 (0 : Fin 1) c)) (fun c => x5 (ix2 (0 : Fin 1) c)) q := by
  rw [pay_eq, tailK_apply]
  exact congrArg (fun o => normRelu o _ _ q) (funext fun k => linK_apply x0 x1 x2 x3 p k)

end Cert.KernelIdeal.Block

end
-- ==== Proof.KernelArray.lean ====
/-
  From blocks to the whole array, for the kernel.

  Grid point `t` (of 40) stages rows `5000·t … 5000·t + 4999` of the aggregated array and of the features, the two
  whole weight matrices and the scale and shift rows (each a [64] argument reshaped to [1, 64] by the host), and writes
  back rows `5000·t …` of the result. By the block lemma what it writes is `out` of those arrays read through its
  block; the 40 blocks tile the 200000 rows (row `r` belongs to point `r / 5000`), so the result array ends as `out`.
-/
import proofs.«145291_j82008105549931_1_alg».proof.Proof.Gen.KernelIdeal.Value
import proofs.«145291_j82008105549931_1_alg».proof.Proof.KernelBlock
import Idealize.ShloMosaic.Lib.Pipeline.Value
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)
open Cert.GraphNorm

variable (m : (ℓ : Loc nD τ sig) → Buf (Elt Ideal) ℓ) (ρ : Dev nD → PrngReg)

theorem hz : (![0, 0] : Fin 2 → Nat) = fun _ => 0 := funext fun a => by fin_cases a <;> rfl

/-! ## The two windows the host writes: the scale and shift vectors as rows -/

theorem V_scale (c : Dev nD) : (V m c main_v23 : S1x64.Idx → EReal) =
    shapeCast S1x64 (m ((c : Thread nD τ).loc main_arg4) : S64.Idx → EReal) shapeCasts_S64_S1x64 := by
  dsimp only [Gen.V, Gen.hostOps0]
  after_results
  rfl

theorem V_shift (c : Dev nD) : (V m c main_v24 : S1x64.Idx → EReal) =
    shapeCast S1x64 (m ((c : Thread nD τ).loc main_arg5) : S64.Idx → EReal) shapeCasts_S64_S1x64 := by
  dsimp only [Gen.V, Gen.hostOps0]
  after_results
  rfl

/-! ## The result as one function of the arrays the region finds -/

/-- The result array the kernel ends with: `out` of the aggregated array as the region finds it and of the arguments. -/
def G (c : Dev nD) : S200000x64.Idx → EReal :=
  out (V m c main_v22 : S200000x64.Idx → EReal) (m ((c : Thread nD τ).loc main_arg0)) (m ((c : Thread nD τ).loc main_arg2))
    (m ((c : Thread nD τ).loc main_arg3)) (m ((c : Thread nD τ).loc main_arg4)) (m ((c : Thread nD τ).loc main_arg5))

/-- The printed index maps, decided over the 40 grid points: the two row windows move with the output, the weight and
    vector windows stay at block (0, 0), and the output's block index is the point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block, read where the output's rows say -/

theorem iblk0_apply (c : Dev nD) (t : Fin cfg0.N) (p : Fin 5000) (j : Fin 64) (r : Fin 200000) (hr : r.val = t.val * 5000 + p.val) :
    (iblk m c 0 t : Vec Ideal S5000x64 .f32) (ix2 p j) = (V m c main_v22 : S200000x64.Idx → EReal) (ix2 r j) := by
  obtain ⟨e00, e01, -⟩ := idx_facts t
  unfold iblk
  rw [View.read_apply, cast_eq]
  show (V m c main_v22 : S200000x64.Idx → EReal) _ = _
  generalize (V m c main_v22 : S200000x64.Idx → EReal) = A
  refine congrArg A (funext fun a => Fin.ext ?_)
  match a with
  | ⟨0, _⟩ => show win0_0.index t (0 : Fin 2) * 5000 + 1 * p.val = r.val; omega
  | ⟨1, _⟩ => show win0_0.index t (1 : Fin 2) * 64 + 1 * j.val = j.val; omega

theorem iblk1_apply (c : Dev nD) (t : Fin cfg0.N) (p : Fin 5000) (j : Fin 64) (r : Fin 200000) (hr : r.val = t.val * 5000 + p.val) :
    (iblk m c 1 t : Vec Ideal S5000x64 .f32) (ix2 p j) = (m ((c : Thread nD τ).loc main_arg0) : S200000x64.Idx → EReal) (ix2 r j) := by
  obtain ⟨-, -, e10, e11, -⟩ := idx_facts t
  unfold iblk
  rw [View.read_apply, cast_eq]
  show (V m c main_arg0 : S200000x64.Idx → EReal) _ = _
  rw [V_main_arg0]
  generalize (m ((c : Thread nD τ).loc main_arg0) : S200000x64.Idx → EReal) = A
  refine congrArg A (funext fun a => Fin.ext ?_)
  match a with
  | ⟨0, _⟩ => show win0_1.index t (0 : Fin 2) * 5000 + 1 * p.val = r.val; omega
  | ⟨1, _⟩ => show win0_1.index t (1 : Fin 2) * 64 + 1 * j.val = j.val; omega

theorem iblk2_apply (c : Dev nD) (t : Fin cfg0.N) (k j : Fin 64) :
    (iblk m c 2 t : Vec Ideal S64x64 .f32) (ix2 k j) = (m ((c : Thread nD τ).loc main_arg2) : S64x64.Idx → EReal) (ix2 k j) := by
  obtain ⟨-, -, -, -, e20, e21, -⟩ := idx_facts t
  unfold iblk
  rw [View.read_apply, cast_eq]
  show (V m c main_arg2 : S64x64.Idx → EReal) _ = _
  rw [V_main_arg2]
  generalize (m ((c : Thread nD τ).loc main_arg2) : S64x64.Idx → EReal) = A
  refine congrArg A (funext fun a => Fin.ext ?_)
  match a with
  | ⟨0, _⟩ => show win0_2.index t (0 : Fin 2) * 64 + 1 * k.val = k.val; omega
  | ⟨1, _⟩ => show win0_2.index t (1 : Fin 2) * 64 + 1 * j.val = j.val; omega

theorem iblk3_apply (c : Dev nD) (t : Fin cfg0.N) (k j : Fin 64) :
    (iblk m c 3 t : Vec Ideal S64x64 .f32) (ix2 k j) = (m ((c : Thread nD τ).loc main_arg3) : S64x64.Idx → EReal) (ix2 k j) := by
  obtain ⟨-, -, -, -, -, -, e30, e31, -⟩ := idx_facts t
  unfold iblk
  rw [View.read_apply, cast_eq]
  show (V m c main_arg3 : S64x64.Idx → EReal) _ = _
  rw [V_main_arg3]
  generalize (m ((c : Thread nD τ).loc main_arg3) : S64x64.Idx → EReal) = A
  refine congrArg A (funext fun a => Fin.ext ?_)
  match a with
  | ⟨0, _⟩ => show win0_3.index t (0 : Fin 2) * 64 + 1 * k.val = k.val; omega
  | ⟨1, _⟩ => show win0_3.index t (1 : Fin 2) * 64 + 1 * j.val = j.val; omega

theorem iblk4_apply (c : Dev nD) (t : Fin cfg0.N) (j : Fin 64) :
    (iblk m c 4 t : Vec Ideal S1x64 .f32) (ix2 (0 : Fin 1) j) = (m ((c : Thread nD τ).loc main_arg4) : S64.Idx → EReal) (ix1 j) := by
  obtain ⟨-, -, -, -, -, -, -, -, e40, e41, -⟩ := idx_facts t
  unfold iblk
  rw [View.read_apply, cast_eq]
  show (V m c main_v23 : S1x64.Idx → EReal) _ = _
  rw [V_scale, ← shapeCast_a_1a_apply (m ((c : Thread nD τ).loc main_arg4) : S64.Idx → EReal) shapeCasts_S64_S1x64 (0 : Fin 1) j]
  refine congrArg (shapeCast S1x64 (m ((c : Thread nD τ).loc main_arg4) : S64.Idx → EReal) shapeCasts_S64_S1x64) (funext fun a => Fin.ext ?_)
  match a with
  | ⟨0, _⟩ => show win0_4.index t (0 : Fin 2) * 1 + 1 * 0 = 0; omega
  | ⟨1, _⟩ => show win0_4.index t (1 : Fin 2) * 64 + 1 * j.val = j.val; omega

theorem iblk5_apply (c : Dev nD) (t : Fin cfg0.N) (j : Fin 64) :
    (iblk m c 5 t : Vec Ideal S1x64 .f32) (ix2 (0 : Fin 1) j) = (m ((c : Thread nD τ).loc main_arg5) : S64.Idx → EReal) (ix1 j) := by
  obtain ⟨-, -, -, -, -, -, -, -, -, -, e50, e51, -⟩ := idx_facts t
  unfold iblk
  rw [View.read_apply, cast_eq]
  show (V m c main_v24 : S1x64.Idx → EReal) _ = _
  rw [V_shift, ← shapeCast_a_1a_apply (m ((c : Thread nD τ).loc main_arg5) : S64.Idx → EReal) shapeCasts_S64_S1x64 (0 : Fin 1) j]
  refine congrArg (shapeCast S1x64 (m ((c : Thread nD τ).loc main_arg5) : S64.Idx → EReal) shapeCasts_S64_S1x64) (funext fun a => Fin.ext ?_)
  match a with
  | ⟨0, _⟩ => show win0_5.index t (0 : Fin 2) * 1 + 1 * 0 = 0; omega
  | ⟨1, _⟩ => show win0_5.index t (1 : Fin 2) * 64 + 1 * j.val = j.val; omega

/-! ## What a point writes back -/

/-- The payload of blocks that are rows of the arrays is `outAt` of the arrays at the row. -/
theorem block_eq (X0 X1 : Vec Ideal S5000x64 .f32) (X2 X3 : Vec Ideal S64x64 .f32) (X4 X5 : Vec Ideal S1x64 .f32)
    (ma feat : S200000x64.Idx → EReal) (wr wo : S64x64.Idx → EReal) (g b : S64.Idx → EReal)
    (p : Fin 5000) (q : Fin 64) (r : Fin 200000)
    (h0 : ∀ j : Fin 64, X0 (ix2 p j) = ma (ix2 r j)) (h1 : ∀ j : Fin 64, X1 (ix2 p j) = feat (ix2 r j))
    (h2 : ∀ k j : Fin 64, X2 (ix2 k j) = wr (ix2 k j)) (h3 : ∀ k j : Fin 64, X3 (ix2 k j) = wo (ix2 k j))
    (h4 : ∀ j : Fin 64, X4 (ix2 (0 : Fin 1) j) = g (ix1 j)) (h5 : ∀ j : Fin 64, X5 (ix2 (0 : Fin 1) j) = b (ix1 j)) :
    k0_pay1 (k0_pay2 X0 X1 X2 X3 X4 X5) (k0_pay3 (F := Ideal)) (ix2 p q) = outAt ma feat wr wo g b r q := by
  rw [Block.pay_apply]
  unfold outAt
  simp only [h0, h1, h2, h3, h4, h5]

/-- `G` at (r, q). -/
theorem G_ix2 (c : Dev nD) (r : Fin 200000) (q : Fin 64) :
    G m c (ix2 r q) = outAt (V m c main_v22 : S200000x64.Idx → EReal) (m ((c : Thread nD τ).loc main_arg0)) (m ((c : Thread nD τ).loc main_arg2))
      (m ((c : Thread nD τ).loc main_arg3)) (m ((c : Thread nD τ).loc main_arg4)) (m ((c : Thread nD τ).loc main_arg5)) r q := rfl

/-- The payload of point `t`'s input blocks at (p, q) is `outAt` at row `5000·t + p`. -/
theorem flushed_point (c : Dev nD) (t : Fin cfg0.N) (p : Fin 5000) (q : Fin 64) (r : Fin 200000) (hr : r.val = t.val * 5000 + p.val) :
    k0_pay1 (k0_pay2 (iblk m c 0 t) (iblk m c 1 t) (iblk m c 2 t) (iblk m c 3 t) (iblk m c 4 t) (iblk m c 5 t)) (k0_pay3 (F := Ideal)) (ix2 p q)
      = outAt (V m c main_v22 : S200000x64.Idx → EReal) (m ((c : Thread nD τ).loc main_arg0)) (m ((c : Thread nD τ).loc main_arg2))
          (m ((c : Thread nD τ).loc main_arg3)) (m ((c : Thread nD τ).loc main_arg4)) (m ((c : Thread nD τ).loc main_arg5)) r q :=
  block_eq (iblk m c 0 t) (iblk m c 1 t) (iblk m c 2 t) (iblk m c 3 t) (iblk m c 4 t) (iblk m c 5 t)
    (V m c main_v22 : S200000x64.Idx → EReal) (m ((c : Thread nD τ).loc main_arg0)) (m ((c : Thread nD τ).loc main_arg2))
    (m ((c : Thread nD τ).loc main_arg3)) (m ((c : Thread nD τ).loc main_arg4)) (m ((c : Thread nD τ).loc main_arg5))
    p q r
    (fun j => iblk0_apply m c t p j r hr) (fun j => iblk1_apply m c t p j r hr)
    (fun k j => iblk2_apply m c t k j) (fun k j => iblk3_apply m c t k j)
    (fun j => iblk4_apply m c t j) (fun j => iblk5_apply m c t j)

/-- Entry (p, q) of the output's block at point `t` is entry (5000·t + p, q) of the array. -/
theorem emb6 (t : Fin cfg0.N) (p : Fin 5000) (q : Fin 64) (r : Fin 200000) (hr : r.val = t.val * 5000 + p.val) :
    ((cfg0.win 6).blk t).view.emb (ix2 p q) = (ix2 r q : S200000x64.Idx) := by
  obtain ⟨-, -, -, -, -, -, -, -, -, -, -, -, e60, e61⟩ := idx_facts t
  refine funext fun a => Fin.ext ?_
  match a with
  | ⟨0, _⟩ => show win0_6.index t (0 : Fin 2) * 5000 + 1 * p.val = r.val; omega
  | ⟨1, _⟩ => show win0_6.index t (1 : Fin 2) * 64 + 1 * q.val = q.val; omega

/-- A staged block `X` that agrees entry by entry with rows `5000·t …` of an array `Gf` IS the array read through point
    `t`'s output block (stated over arbitrary `X` and `Gf`: only the window's geometry is used). -/
theorem cut_eq_read (t : Fin cfg0.N) (X : Vec Ideal S5000x64 .f32) (Gf : S200000x64.Idx → EReal)
    (hX : ∀ (p : Fin 5000) (q : Fin 64) (r : Fin 200000), r.val = t.val * 5000 + p.val → X (ix2 p q) = Gf (ix2 r q)) :
    (cfg0.win 6).cut (grid0.coords t) X = ((cfg0.win 6).blk t).view.read (Elt Ideal) Gf := by
  have ht : t.val < 40 := lt_of_lt_of_eq t.isLt N_0
  refine funext fun (y : S5000x64.Idx) => ?_
  obtain ⟨p, q, rfl⟩ : ∃ (p : Fin 5000) (q : Fin 64), y = ix2 p q := ⟨y 0, y 1, eq_ix2 y⟩
  have hp : p.val < 5000 := p.isLt
  show X (ix2 p q) = Gf (((cfg0.win 6).blk t).view.emb (ix2 p q))
  rw [emb6 t p q ⟨t.val * 5000 + p.val, by omega⟩ rfl]
  exact hX p q _ rfl

/-- The body's result for the output window is its one store's payload of the loaded blocks. -/
theorem out0_6_eq (x0 x1 : Vec Ideal S5000x64 .f32) (x2 x3 : Vec Ideal S64x64 .f32) (x4 x5 : Vec Ideal S1x64 .f32) :
    out0_6 x0 x1 x2 x3 x4 x5 = k0_pay1 (k0_pay2 x0 x1 x2 x3 x4 x5) (k0_pay3 (F := Ideal)) := by
  unfold out0_6
  rw [View.canon_unit_zero hz]
  simp only [View.ld_unit_zero (S := S5000x64) hz, View.ld_unit_zero (S := S64x64) hz, View.ld_unit_zero (S := S1x64) hz]

/-- WHAT POINT `t` WRITES BACK is block `t` of `G`. -/
theorem flushed_eq (c : Dev nD) (t : Fin cfg0.N) :
    (dats m 0 c).flushed 6 t = ((cfg0.win 6).blk t).view.read (Elt Ideal) (G m c) := by
  rw [Value.flushed6, out0_6_eq]
  exact cut_eq_read t
    (k0_pay1 (k0_pay2 (iblk m c 0 t) (iblk m c 1 t) (iblk m c 2 t) (iblk m c 3 t) (iblk m c 4 t) (iblk m c 5 t)) (k0_pay3 (F := Ideal)))
    (G m c) (fun p q r hr => (flushed_point m c t p q r hr).trans (G_ix2 m c r q).symm)

/-! ## The cover and the run -/

/-- An index of the result array is in point `t`'s block iff each coordinate is in the block's range on its axis. -/
theorem mem_blk (t : Fin cfg0.N) (i : S200000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v25).slice (win0_6.rect t)).set ↔ _
  rw [View.set_slice_whole, Rect.mem_set_unit]
  exact Iff.rfl

/-- Row `r` is written by point `r / 5000`. -/
theorem cover (i : S200000x64.Idx) : ∃ t : Fin cfg0.N, (cfg0.win 6).flush t = true ∧ i ∈ ((cfg0.win 6).blk t).view.set := by
  have hi0 : (i 0).val < 200000 := (i 0).isLt
  have hi1 : (i 1).val < 64 := (i 1).isLt
  have hN : cfg0.N = 40 := N_0
  have hlt : (i 0).val / 5000 < cfg0.N := by rw [hN]; omega
  obtain ⟨-, -, -, -, -, -, -, -, -, -, -, -, e60, e61⟩ := idx_facts ⟨(i 0).val / 5000, hlt⟩
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, hlt⟩ (1 : Fin 2) * 64 ≤ (i 1).val ∧ (i 1).val < win0_6.index ⟨(i 0).val / 5000, hlt⟩ (1 : Fin 2) * 64 + 64
    omega

/-- THE RESULT ARRAY after the run is `G`. -/
theorem final (c : Dev nD) : (dats m 0 c).arrAt 6 cfg0.N = G m c :=
  (dats m 0 c).arrAt_eq_of_cover 6 (G m c) (fun t _ => flushed_eq m c t) cover

/-- The kernel's run, read: the result array at `G`, the arguments unchanged. -/
theorem run : θ_run defs (onTc (τ := τ) (main (F := Ideal))) ⟨m, fun _ => 0, ρ⟩ fun r => ∀ c : Dev nD,
      r.2.mem ((c : Thread nD τ).loc main_v25) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefStage.lean ====
/-
  The reference's result, entry by entry, at the exact instance.

  The reference computes, on whole [200000, 64] arrays, the same chain the kernel computes block by block: two
  contractions against transposed weights and their sum, the row mean and the deviations from it, the mean of the
  squared deviations, the reciprocal square root of that plus ε, the scale, the shift and the rectifier. Read at
  (r, q), every stage depends only on row `r` of the linear stage, so the result there is `outAt … r q` with the
  aggregated-neighbour array (the stage before the contractions) kept as one opaque array.
-/
import proofs.«145291_j82008105549931_1_alg».proof.Proof.Gen.ReferenceIdeal.Read
import proofs.«145291_j82008105549931_1_alg».proof.Proof.RowNorm
import Idealize.ShloMosaic.PureOps.Ideal.Laws
import Idealize.ShloMosaic.Lib.ValueIdx

noncomputable section

namespace Cert.ReferenceIdeal.Stage

open Cert.ReferenceIdeal Cert.ReferenceIdeal.Read Idealize.ShloMosaic Idealize.ShloMosaic.ValueIdx
open Cert.GraphNorm

variable (x0 : (⟨S200000x64, .f32⟩ : BufTy).Contents (Elt Ideal)) (x1 : (⟨S2x1200000, .i32⟩ : BufTy).Contents (Elt Ideal))
  (x2 x3 : (⟨S64x64, .f32⟩ : BufTy).Contents (Elt Ideal)) (x4 x5 : (⟨S64, .f32⟩ : BufTy).Contents (Elt Ideal))

/-- The linear stage at (r, k): row `r` of the aggregated array against row `k` of the first weight matrix, plus row
    `r` of the features against row `k` of the second. -/
theorem lin_at (r : Fin 200000) (k : Fin 64) :
    val_main_v27 (F := Ideal) x0 x1 x2 x3 (ix2 r k)
      = lin (fun j => val_main_v22 (F := Ideal) x0 x1 (ix2 r j)) (fun j => x0 (ix2 r j)) (fun k j => x2 (ix2 k j)) (fun k j => x3 (ix2 k j)) k := by
  rw [val_main_v27_apply, val_main_v24_apply, val_main_v26_apply, Ideal.addf_def]
  unfold lin
  refine congrArg₂ (· + ·) (Finset.sum_congr rfl fun j _ => ?_) (Finset.sum_congr rfl fun j _ => ?_)
  · rw [val_main_v23_apply]
    refine congrArg₂ (· * ·) (congrArg _ ?_) (congrArg _ ?_)
    · exact funext fun a => Fin.ext (by match a with | ⟨0, _⟩ => rfl | ⟨1, _⟩ => rfl)
    · exact funext fun a => Fin.ext (by match a with | ⟨0, _⟩ => rfl | ⟨1, _⟩ => rfl)
  · rw [val_main_v25_apply]
    refine congrArg₂ (· * ·) (congrArg _ ?_) (congrArg _ ?_)
    · exact funext fun a => Fin.ext (by match a with | ⟨0, _⟩ => rfl | ⟨1, _⟩ => rfl)
    · exact funext fun a => Fin.ext (by match a with | ⟨0, _⟩ => rfl | ⟨1, _⟩ => rfl)

/-- The sums start from the f32 zero word, which is the extended real 0. -/
theorem init_mean (i : S_.Idx) : val_main_cst_4 (F := Ideal) i = (0 : EReal) := Ideal.ofBits_zero_f32
theorem init_var (i : S_.Idx) : val_main_cst_6 (F := Ideal) i = (0 : EReal) := Ideal.ofBits_zero_f32

/-- The row mean (kept as a column). -/
theorem mean_at (r : Fin 200000) (u : Fin 1) :
    val_main_v31 (F := Ideal) x0 x1 x2 x3 (ix2 r u) = rowMean (fun k => val_main_v27 (F := Ideal) x0 x1 x2 x3 (ix2 r k)) := by
  rw [val_main_v31_apply, val_main_v29_apply, val_main_v28_apply, init_mean, zero_add, val_main_v30_apply, val_main_cst_5_apply]
  have hidx : ∀ k : Fin 64, idx_main_v28 (idx_main_v29 (ix2 r u)) k = ix2 r k := fun k =>
    funext fun a => Fin.ext (by match a with | ⟨0, _⟩ => rfl | ⟨1, _⟩ => rfl)
  simp only [hidx]
  rfl

/-- The deviation from the row mean, as the variance reads it. -/
theorem dev33_at (r : Fin 200000) (q : Fin 64) :
    val_main_v33 (F := Ideal) x0 x1 x2 x3 (ix2 r q) = dev (fun k => val_main_v27 (F := Ideal) x0 x1 x2 x3 (ix2 r k)) q := by
  rw [val_main_v33_apply, val_main_v32_apply, Ideal.subf_def,
    show idx_main_v32 (ix2 r q) = ix2 r (0 : Fin 1) from funext fun a => Fin.ext (by match a with | ⟨0, _⟩ => rfl | ⟨1, _⟩ => rfl),
    mean_at]
  rfl

/-- The same deviation, as the normalisation reads it (the reference broadcasts the mean a second time). -/
theorem dev40_at (r : Fin 200000) (q : Fin 64) :
    val_main_v40 (F := Ideal) x0 x1 x2 x3 (ix2 r q) = dev (fun k => val_main_v27 (F := Ideal) x0 x1 x2 x3 (ix2 r k)) q := by
  rw [val_main_v40_apply, val_main_v39_apply, Ideal.subf_def,
    show idx_main_v39 (ix2 r q) = ix2 r (0 : Fin 1) from funext fun a => Fin.ext (by match a with | ⟨0, _⟩ => rfl | ⟨1, _⟩ => rfl),
    mean_at]
  rfl

/-- The row variance (kept as a column). -/
theorem var_at (r : Fin 200000) (u : Fin 1) :
    val_main_v38 (F := Ideal) x0 x1 x2 x3 (ix2 r u) = rowVar (fun k => val_main_v27 (F := Ideal) x0 x1 x2 x3 (ix2 r k)) := by
  rw [val_main_v38_apply, val_main_v36_apply, val_main_v35_apply, init_var, zero_add, val_main_v37_apply, val_main_cst_7_apply]
  have hidx : ∀ k : Fin 64, idx_main_v35 (idx_main_v36 (ix2 r u)) k = ix2 r k := fun k =>
    funext fun a => Fin.ext (by match a with | ⟨0, _⟩ => rfl | ⟨1, _⟩ => rfl)
  have hsum : (∑ k : Fin 64, val_main_v34 (F := Ideal) x0 x1 x2 x3 (idx_main_v35 (idx_main_v36 (ix2 r u)) k))
      = ∑ k : Fin 64, dev (fun k => val_main_v27 (F := Ideal) x0 x1 x2 x3 (ix2 r k)) k
          * dev (fun k => val_main_v27 (F := Ideal) x0 x1 x2 x3 (ix2 r k)) k :=
    Finset.sum_congr rfl fun k _ => by
      rw [hidx k, val_main_v34_apply, dev33_at]
      rfl
  rw [hsum]
  rfl

/-- The reciprocal square root of the variance plus ε, repeated along the row. -/
theorem inv_at (r : Fin 200000) (q : Fin 64) :
    val_main_v44 (F := Ideal) x0 x1 x2 x3 (ix2 r q)
      = Ideal.rsqrt (rowVar (fun k => val_main_v27 (F := Ideal) x0 x1 x2 x3 (ix2 r k)) + Ideal.ofBits .f32 0x3727C5AC#32) := by
  rw [val_main_v44_apply, val_main_v43_apply, val_main_v42_apply, val_main_v41_apply, val_main_cst_8_apply,
    Ideal.hostUnary_rsqrt_def, Ideal.addf_def, Ideal.ofBits_def,
    show idx_main_v44 (ix2 r q) = ix2 r (0 : Fin 1) from funext fun a => Fin.ext (by match a with | ⟨0, _⟩ => rfl | ⟨1, _⟩ => rfl),
    var_at]

/-- THE RESULT at (r, q). -/
theorem out_at (r : Fin 200000) (q : Fin 64) :
    val_main_v53 (F := Ideal) x0 x1 x2 x3 x4 x5 (ix2 r q) = outAt (val_main_v22 (F := Ideal) x0 x1) x0 x2 x3 x4 x5 r q := by
  rw [val_main_v53_apply, val_main_v51_apply, val_main_v48_apply, val_main_v45_apply, dev40_at, inv_at, val_main_v47_apply,
    val_main_v46_apply, val_main_v50_apply, val_main_v49_apply, val_main_v52_apply, val_main_cst_9_apply,
    Ideal.maximumf_def, Ideal.addf_def, Ideal.mulf_def, Ideal.mulf_def, Ideal.ofBits_def,
    show idx_main_v46 (idx_main_v47 (ix2 r q)) = ix1 q from funext fun a => Fin.ext (by match a with | ⟨0, _⟩ => rfl),
    show idx_main_v49 (idx_main_v50 (ix2 r q)) = ix1 q from funext fun a => Fin.ext (by match a with | ⟨0, _⟩ => rfl),
    show (fun k => val_main_v27 (F := Ideal) x0 x1 x2 x3 (ix2 r k))
      = lin (fun j => val_main_v22 (F := Ideal) x0 x1 (ix2 r j)) (fun j => x0 (ix2 r j)) (fun k j => x2 (ix2 k j)) (fun k j => x3 (ix2 k j))
      from funext fun k => lin_at x0 x1 x2 x3 r k]
  rfl

/-- The reference's result array is `out` of the aggregated array and the arguments. -/
theorem result_eq :
    val_main_v53 (F := Ideal) x0 x1 x2 x3 x4 x5 = out (val_main_v22 (F := Ideal) x0 x1) x0 x2 x3 x4 x5 := by
  funext i
  obtain ⟨r, q, rfl⟩ : ∃ (r : Fin 200000) (q : Fin 64), i = ix2 r q := ⟨i 0, i 1, eq_ix2 i⟩
  rw [out_ix2]
  exact out_at x0 x1 x2 x3 x4 x5 r q

end Cert.ReferenceIdeal.Stage

end
-- ==== Proof.HostPrefix.lean ====
/-
  Both programs compute the aggregated-neighbour array (gather the source rows, scatter-add them into the destination
  rows, divide by the clamped in-degree) by the SAME host operations on the same arguments. This module says only that:
  the array the kernel's region finds in its first window is the reference's stage before its contractions, as one
  term; nothing of the gather, the scatters or the division is opened.
-/
import proofs.«145291_j82008105549931_1_alg».proof.Proof.Gen.KernelIdeal.Frame
import proofs.«145291_j82008105549931_1_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The mean-aggregated array as the region finds it is the reference's aggregated stage of the same arguments. -/
theorem agg_eq (c : Dev nD) : (V m c main_v22 : S200000x64.Idx → EReal) =
    Cert.ReferenceIdeal.Read.val_main_v22 (F := Ideal) (m ((c : Thread nD τ).loc main_arg0)) (m ((c : Thread nD τ).loc main_arg1)) := by
  dsimp only [Gen.V, Gen.hostOps0]
  after_results_simp
  rfl

end Cert.KernelIdeal.HostPrefix

end
-- ==== Proof.lean ====
/-
  A mean-aggregation graph convolution with layer normalisation and a rectifier, a blocked kernel against its
  whole-array reference, as extended reals.

  Both programs first form, on the host and by the same operations, the aggregated-neighbour array (rows of the
  features gathered by source node, summed into their destination nodes, divided by the in-degree clamped below by
  one). The kernel then walks 40 blocks of 5000 nodes; on each it multiplies the block of aggregated rows and the block
  of feature rows by the two transposed weight matrices, adds the products, normalises every row over its 64 channels
  (mean, deviations, mean squared deviation, reciprocal square root with ε), scales, shifts and rectifies. The
  reference does the same on the whole [200000, 64] arrays. Every entry of the result depends on one row only, so both
  are the function `out` (Proof/RowNorm.lean) of the aggregated array and the arguments:

    * Proof/KernelBlock.lean — what the kernel body stores, entry by entry;
    * Proof/KernelArray.lean — each grid point writes its block of `out`, and the 40 blocks tile the rows;
    * Proof/RefStage.lean — the reference's stages read at an entry give `out` as well;
    * Proof/HostPrefix.lean — the two aggregated arrays are one term.

  No algebraic law is needed beyond `0 + x = x` for the sums' initial value, so the finiteness precondition is not used.
  The kernel's idealisation rewrote nothing, so it preserves the kernel trivially; the three frames are the generated
  frame certificates and the reference's generated run.
-/
import proofs.«145291_j82008105549931_1_alg».proof.Defs
import proofs.«145291_j82008105549931_1_alg».proof.Proof.Gen.Kernel
import proofs.«145291_j82008105549931_1_alg».proof.Proof.Gen.Kernel.Skeleton
import proofs.«145291_j82008105549931_1_alg».proof.Proof.Gen.Kernel.Launch
import proofs.«145291_j82008105549931_1_alg».proof.Proof.Gen.Kernel.Points
import proofs.«145291_j82008105549931_1_alg».proof.Proof.Gen.Kernel.Frame
import proofs.«145291_j82008105549931_1_alg».proof.Proof.Gen.KernelIdeal
import proofs.«145291_j82008105549931_1_alg».proof.Proof.Gen.KernelIdeal.Skeleton
import proofs.«145291_j82008105549931_1_alg».proof.Proof.Gen.KernelIdeal.Launch
import proofs.«145291_j82008105549931_1_alg».proof.Proof.Gen.KernelIdeal.Points
import proofs.«145291_j82008105549931_1_alg».proof.Proof.Gen.KernelIdeal.Frame
import proofs.«145291_j82008105549931_1_alg».proof.Proof.Gen.ReferenceIdeal
import proofs.«145291_j82008105549931_1_alg».proof.Proof.Gen.Pre_finite_inputs
import proofs.«145291_j82008105549931_1_alg».proof.Proof.Gen.KernelIdeal.Value
import proofs.«145291_j82008105549931_1_alg».proof.Proof.Gen.ReferenceIdeal.Run
import proofs.«145291_j82008105549931_1_alg».proof.Proof.Gen.ReferenceIdeal.Read
import proofs.«145291_j82008105549931_1_alg».proof.Proof.KernelArray
import proofs.«145291_j82008105549931_1_alg».proof.Proof.RefStage
import proofs.«145291_j82008105549931_1_alg».proof.Proof.HostPrefix
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at `out` of the aggregated array it staged and of its arguments; the reference's at
    `out` of its own aggregated stage and arguments; the arguments agree and the two aggregated arrays are one term. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v53 m' c = Cert.KernelIdeal.Whole.G m c
  rw [Cert.ReferenceIdeal.Read.val_main_v53_eq, Cert.ReferenceIdeal.Stage.result_eq, (hagree c).1, (hagree c).2.1,
    (hagree c).2.2.1, (hagree c).2.2.2.1, (hagree c).2.2.2.2.1, (hagree c).2.2.2.2.2, Cert.KernelIdeal.Whole.G,
    Cert.KernelIdeal.HostPrefix.agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
